-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel

variable [Facts]

def fn {F : FTy → Type} [FloatOps F] (main_arg0 : FVec F S4x512x128 .f32) (main_arg1 : FVec F S4x512x128 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S4x512x128 .f32 := Host.absf main_arg1
  let main_cst_0 : FVec F S_ .f32 := constant S_ .f32 0x7F800000#32
  let main_v5 : FVec F S4x512x128 .f32 := broadcastInDim S4x512x128 ![] bcast_S_S4x512x128 main_cst_0
  let main_v6 : IVec S4x512x128 1 := cmpf .olt main_v4 main_v5
  let main_c_1 : IVec S_ 1 := constantI S_ 1 1#1
  let main_v7 : IVec S_ 1 := (fun x v => Host.reduce IntOp.andi x v reducesTo_S4x512x128_S_d0_1_2 h_S_) main_v6 main_c_1
  let main_v8 : IVec S_ 1 := andi main_v3 main_v7
  main_v8
-- ==== Kernel.lean ====
abbrev S4x512x128 : Shape := ⟨3, ![4, 512, 128]⟩
abbrev S4x128x512 : Shape := ⟨3, ![4, 128, 512]⟩
abbrev S4x512x512 : Shape := ⟨3, ![4, 512, 512]⟩
abbrev S4x512x1 : Shape := ⟨3, ![4, 512, 1]⟩
abbrev S1x128x128 : Shape := ⟨3, ![1, 128, 128]⟩
abbrev S1x128x512 : Shape := ⟨3, ![1, 128, 512]⟩
abbrev S1x128x1 : Shape := ⟨3, ![1, 128, 1]⟩
abbrev S128x512 : Shape := ⟨2, ![128, 512]⟩
abbrev S1x16x128 : Shape := ⟨3, ![1, 16, 128]⟩
abbrev S16x128 : Shape := ⟨2, ![16, 128]⟩
abbrev S1x16x512 : Shape := ⟨3, ![1, 16, 512]⟩
abbrev S16x512 : Shape := ⟨2, ![16, 512]⟩
abbrev S16x128x1 : Shape := ⟨3, ![16, 128, 1]⟩
abbrev S16x1x512 : Shape := ⟨3, ![16, 1, 512]⟩
abbrev S16x128x512 : Shape := ⟨3, ![16, 128, 512]⟩
abbrev S128 : Shape := ⟨1, ![128]⟩
abbrev S128x1 : Shape := ⟨2, ![128, 1]⟩
abbrev S4x1x512 : Shape := ⟨3, ![4, 1, 512]⟩

abbrev nBuf : Space → Nat
  | .hbm => 7
  | .vmem => 8
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x128x512, .f32⟩
  | .hbm, ⟨3, _⟩ => ⟨S4x128x512, .f32⟩
  | .hbm, ⟨4, _⟩ => ⟨S4x512x512, .f32⟩
  | .hbm, ⟨5, _⟩ => ⟨S4x512x1, .f32⟩
  | .hbm, ⟨6, _⟩ => ⟨S4x1x512, .f32⟩
  | .local _ .vmem, ⟨0, _⟩ => ⟨S1x128x128, .f32⟩
  | .local _ .vmem, ⟨1, _⟩ => ⟨S1x128x128, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x1, .f32⟩
  | .local _ .vmem, ⟨7, _⟩ => ⟨S1x128x1, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32 : BitVec 32 := 16#32
  let v15 : BitVec 32 := Scalar.muli arg6 c16_i32
  v15
def k0_off1 (k0_t1 : Fin k0_t1_loop.trips) : Fin 3 → Nat :=
  let c0_9 : Index := 0#32
  let c0_i32 : BitVec 32 := 0#32
  let c1_i32 : BitVec 32 := 1#32
  let arg6 : BitVec 32 := Scf.iv c0_i32 c1_i32 k0_t1
  let c16_i32 : BitVec 32 := 16#32
  let v15 : BitVec 32 := Scalar.muli arg6 c16_i32
  let v16 : BitVec 32 := v15
  let v17 : Index := Scalar.indexCast v16
  let c0_10 : Index := 0#32
  ![0, v17.toNat, 0]
def k0_off2 (k0_t1 : Fin k0_t1_loop.trips) : Fin 3 → Nat :=
  let c0_11 : Index := 0#32
  let c0_i32 : BitVec 32 := 0#32
  let c1_i32 : BitVec 32 := 1#32
  let arg6 : BitVec 32 := Scf.iv c0_i32 c1_i32 k0_t1
  let c16_i32 : BitVec 32 := 16#32
  let v15 : BitVec 32 := Scalar.muli arg6 c16_i32
  let v16 : BitVec 32 := v15
  let v20 : Index := Scalar.indexCast v16
  let c0_12 : Index := 0#32
  ![0, v20.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S4x512x128_S4x128x512_0_2_1 : S4x512x128.Transposes [0, 2, 1] S4x128x512
  h_S1x16x128 : 0 < S1x16x128.numel
  shapeCasts_S1x16x128_S16x128 : S1x16x128.ShapeCasts S16x128
  h_S1x16x512 : 0 < S1x16x512.numel
  shapeCasts_S1x16x512_S16x512 : S1x16x512.ShapeCasts S16x512
  shapeCasts_S16x128_S16x128x1 : S16x128.ShapeCasts S16x128x1
  shapeCasts_S16x512_S16x1x512 : S16x512.ShapeCasts S16x1x512
  broadcasts_S16x128x1_S16x128x512 : S16x128x1.Broadcasts S16x128x512
  broadcasts_S16x1x512_S16x128x512 : S16x1x512.Broadcasts S16x128x512
  reduces_S16x128x512_S128x512 : S16x128x512.Reduces [0] S128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  reduces_S128x512_S128 : S128x512.Reduces [1] S128
  shapeCasts_S128_S128x1 : S128.ShapeCasts S128x1
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  transposes_S4x512x1_S4x1x512_0_2_1 : S4x512x1.Transposes [0, 2, 1] S4x1x512
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S1x16x128.size a ≤ S1x128x128.size a
  k0_off2_inb : ∀ k0_t1 : Fin k0_t1_loop.trips, ∀ a, (k0_off2 k0_t1) a + S1x16x512.size a ≤ S1x128x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S4x128x512.size a
  hwx0_0 : ∀ i : grid0.Coords, EltTy.bits .f32 = 32 ∨ (Rect.block (s := S4x128x512) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S4x128x512.size a
  hwx0_1 : ∀ i : grid0.Coords, EltTy.bits .f32 = 32 ∨ (Rect.block (s := S4x128x512) S1x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S4x512x512.size a
  hwx0_2 : ∀ i : grid0.Coords, EltTy.bits .f32 = 32 ∨ (Rect.block (s := S4x512x512) S1x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S4x512x1.size a
  hwx0_3 : ∀ i : grid0.Coords, EltTy.bits .f32 = 32 ∨ (Rect.block (s := S4x512x1) S1x128x1.size (cc0_transform_3 i) (hinb0_3 i)).WholeWords (EltTy.packing .f32)

variable [Facts₀]

abbrev win0_0 : Pipeline.Window sig grid0 :=
  Pipeline.Window.ofSpec (Memref.whole main_v0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x128x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x512x128 : Shape := ⟨3, ![4, 512, 128]⟩
abbrev S4x1x512x128 : Shape := ⟨4, ![4, 1, 512, 128]⟩
abbrev S4x512x1x128 : Shape := ⟨4, ![4, 512, 1, 128]⟩
abbrev S4x512x512x128 : Shape := ⟨4, ![4, 512, 512, 128]⟩
abbrev S_ : Shape := ⟨0, ![]⟩
abbrev S4x512x512 : Shape := ⟨3, ![4, 512, 512]⟩
abbrev S4x512 : Shape := ⟨2, ![4, 512]⟩
abbrev S4x1x512 : Shape := ⟨3, ![4, 1, 512]⟩

abbrev nBuf : Space → Nat
  | .hbm => 18
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x1x512x128, .f32⟩
  | .hbm, ⟨3, _⟩ => ⟨S4x512x1x128, .f32⟩
  | .hbm, ⟨4, _⟩ => ⟨S4x512x512x128, .f32⟩
  | .hbm, ⟨5, _⟩ => ⟨S4x512x512x128, .f32⟩
  | .hbm, ⟨6, _⟩ => ⟨S4x512x512x128, .f32⟩
  | .hbm, ⟨7, _⟩ => ⟨S4x512x512x128, .f32⟩
  | .hbm, ⟨8, _⟩ => ⟨S_, .f32⟩
  | .hbm, ⟨9, _⟩ => ⟨S4x512x512, .f32⟩
  | .hbm, ⟨10, _⟩ => ⟨S_, .f32⟩
  | .hbm, ⟨11, _⟩ => ⟨S4x512x512, .f32⟩
  | .hbm, ⟨12, _⟩ => ⟨S4x512x512, .f32⟩
  | .hbm, ⟨13, _⟩ => ⟨S4x512x512, .f32⟩
  | .hbm, ⟨14, _⟩ => ⟨S4x512x512, .f32⟩
  | .hbm, ⟨15, _⟩ => ⟨S_, .f32⟩
  | .hbm, ⟨16, _⟩ => ⟨S4x512, .f32⟩
  | .hbm, ⟨17, _⟩ => ⟨S4x1x512, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S4x512x128_S4x1x512x128_0_2_3 : S4x512x128.BroadcastsInDim S4x1x512x128 (![0, 2, 3] : Fin 3 → Fin S4x1x512x128.rank)
  bcast_S4x512x128_S4x512x1x128_0_1_3 : S4x512x128.BroadcastsInDim S4x512x1x128 (![0, 1, 3] : Fin 3 → Fin S4x512x1x128.rank)
  bcast_S4x1x512x128_S4x512x512x128_0_1_2_3 : S4x1x512x128.BroadcastsInDim S4x512x512x128 (![0, 1, 2, 3] : Fin 4 → Fin S4x512x512x128.rank)
  bcast_S4x512x1x128_S4x512x512x128_0_1_2_3 : S4x512x1x128.BroadcastsInDim S4x512x512x128 (![0, 1, 2, 3] : Fin 4 → Fin S4x512x512x128.rank)
  reducesTo_S4x512x512x128_S4x512x512_d3 : S4x512x512x128.ReducesTo [3] S4x512x512
  h_S_ : 0 < S_.numel
  bcast_S_S4x512x512 : S_.BroadcastsInDim S4x512x512 (![] : Fin 0 → Fin S4x512x512.rank)
  transposes_S4x512x512_S4x512x512_0_2_1 : S4x512x512.Transposes [0, 2, 1] S4x512x512
  reducesTo_S4x512x512_S4x512_d2 : S4x512x512.ReducesTo [2] S4x512
  bcast_S4x512_S4x1x512_0_2 : S4x512.BroadcastsInDim S4x1x512 (![0, 2] : Fin 2 → Fin S4x1x512.rank)

variable [Facts₀]

class Facts : Prop extends Facts₀ where

variable [Facts]
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.LibSoftmaxRow.lean ====
/-
  A softmax-weighted average of one row, in two arrangements.

  For scores `S k` and values `V k` over `n ≥ 1` keys, let `M` be the maximum of the scores (folded from -∞),
  `e k = exp (S k - M)` and `l = Σ_k e k`. One arrangement divides first and sums afterwards,
      Σ_k (e k / l) · V k ,
  the other sums first and divides once,
      (Σ_k e k · V k) / l .
  When every score and every value is a real number the maximum is a real number, every `e k` is a positive real and
  `l > 0`, so the quotient by `l` is the product with the real `1 / l`, which distributes over the finite sum: the two
  arrangements agree. (Over the extended reals in general they do not: the product does not distribute over a sum that
  mixes +∞ and -∞.)
-/
import Mathlib
import Idealize.ShloMosaic.PureOps.Ideal
import proofs.«115117_j42649025249395_2_alg».proof.Proof.LibRealSum

noncomputable section

open scoped BigOperators

namespace Cert.LibSoftmaxRow

open Idealize.ShloMosaic Cert.LibRealSum

variable {n : ℕ}

/-- The f32 word `0xFF800000` denotes -∞. -/
theorem ofBits_negInf : Ideal.ofBits .f32 0xFF800000#32 = ⊥ := by simp [Ideal.ofBits, Ideal.ieee]

/-- -∞ is the identity of `max`. -/
theorem max_negInf (y : EReal) : max (Ideal.ofBits .f32 0xFF800000#32) y = y := by
  rw [ofBits_negInf]; exact max_eq_right bot_le

/-- The maximum of `n` extended reals, folded from the f32 word of -∞. -/
def rowMax (S : Fin n → EReal) : EReal :=
  (Finset.univ : Finset (Fin n)).fold max (Ideal.ofBits .f32 0xFF800000#32) S

/-- The maximum of a nonempty family of reals is a real. -/
theorem isReal_rowMax (hn : 0 < n) (S : Fin n → EReal) (hS : ∀ k, IsReal (S k)) : IsReal (rowMax S) := by
  have htop : rowMax S ≠ ⊤ := by
    unfold rowMax
    rw [← lt_top_iff_ne_top, Finset.fold_max_lt]
    refine ⟨by rw [ofBits_negInf]; exact bot_lt_top, fun k _ => ?_⟩
    obtain ⟨a, ha⟩ := hS k
    rw [ha]; exact EReal.coe_lt_top a
  have hbot : rowMax S ≠ ⊥ := by
    unfold rowMax
    rw [← bot_lt_iff_ne_bot, Finset.lt_fold_max]
    refine Or.inr ⟨⟨0, hn⟩, Finset.mem_univ _, ?_⟩
    obtain ⟨a, ha⟩ := hS ⟨0, hn⟩
    rw [ha]; exact EReal.bot_lt_coe a
  exact ⟨(rowMax S).toReal, (EReal.coe_toReal htop hbot).symm⟩

/-- Divide each weight by the normaliser, then average: `Σ_k (e k / l) · V k`. -/
def softmaxAvg (S V : Fin n → EReal) : EReal :=
  ∑ k, Ideal.div (Ideal.exp (S k - rowMax S)) (∑ i, Ideal.exp (S i - rowMax S)) * V k

/-- Average with the unnormalised weights, then divide once: `(Σ_k e k · V k) / l`. -/
def softmaxQuot (S V : Fin n → EReal) : EReal :=
  Ideal.div (∑ k, Ideal.exp (S k - rowMax S) * V k) (∑ k, Ideal.exp (S k - rowMax S))

/-- With real scores and real values over at least one key the two arrangements agree. -/
theorem softmaxQuot_eq_softmaxAvg (hn : 0 < n) (S V : Fin n → EReal) (hS : ∀ k, IsReal (S k)) (hV : ∀ k, IsReal (V k)) :
    softmaxQuot S V = softmaxAvg S V := by
  obtain ⟨M, hM⟩ := isReal_rowMax hn S hS
  choose s hs using hS
  choose v hv using hV
  unfold softmaxQuot softmaxAvg
  rw [hM]
  have hexp : ∀ k, Ideal.exp (S k - (M : EReal)) = ((Real.exp (s k - M) : ℝ) : EReal) := fun k => by
    rw [hs k, ← EReal.coe_sub, Ideal.exp_coe]
  have hpos : (∑ i, Real.exp (s i - M)) ≠ 0 :=
    (Finset.sum_pos (fun _ _ => Real.exp_pos _) ⟨⟨0, hn⟩, Finset.mem_univ _⟩).ne'
  simp only [hexp, hv, ← EReal.coe_mul, ← coe_finset_sum, Ideal.div_coe hpos]
  refine congrArg _ ?_
  rw [Finset.sum_mul]
  exact Finset.sum_congr rfl fun k _ => by ring

end Cert.LibSoftmaxRow

end
-- ==== Proof.LibAxis2.lean ====
/-
  An array `[A, R, C]` reduced along its last axis, as a kernel and as the host compute it, and the two layout steps
  that carry a per-row result back over the row.

  Over the extended reals: the kernel's lane maximum from the word of -∞ and the host's reduce with a maximum body from
  the same word are both the fold of `max` over the `C` entries of row `(a, r)`; the kernel's lane sum and the host's sum
  from zero are both the plain sum of that row's entries. A result `[A, R]` recast as `[A, R, 1]` reads `(a, r)` at
  `(a, r, 0)`, and `[A, R, 1]` broadcast along the last axis to `[A, R, D]` reads `(a, r, 0)` at every `(a, r, d)`.
-/
import Mathlib
import Idealize.ShloMosaic.PureOps.Ideal
import Idealize.ShloMosaic.PureOps.Ideal.Laws
import Idealize.ShloMosaic.Lib.Pipeline.Value
import Idealize.ShloMosaic.Lib.ValueIdx
import proofs.«115117_j42649025249395_2_alg».proof.Proof.LibSoftmaxRow

noncomputable section

open scoped BigOperators

namespace Cert.LibAxis2

open Idealize.ShloMosaic Idealize.ShloMosaic.ValueIdx Cert.LibSoftmaxRow

variable {A R C D : Nat}

/-- The reduced index `(a, r)` with lane `k` put back on the last axis is `(a, r, k)`. -/
theorem lift_last (h : (⟨3, ![A, R, C]⟩ : Shape).Reduces [2] (⟨2, ![A, R]⟩ : Shape)) (a : Fin A) (r : Fin R)
    (k : Fin ((⟨3, ![A, R, C]⟩ : Shape).size 2)) : h.lift (ix2 a r) k = ix3 a r (⟨k.val, k.isLt⟩ : Fin C) := by
  funext c; apply Fin.ext
  fin_cases c <;> rfl

/-- The kernel's lane maximum of row `(a, r)`. -/
theorem multiReduction_max_last (src : FVec Ideal ⟨3, ![A, R, C]⟩ .f32)
    (h : (⟨3, ![A, R, C]⟩ : Shape).Reduces [2] (⟨2, ![A, R]⟩ : Shape)) (hφ : FKind.Formats .f32)
    (hacc : (0xFF800000#32 : BitVec 32) = FKind.maximumf.neutral .f32 hφ) (a : Fin A) (r : Fin R) :
    multiReduction .maximumf [2] (⟨2, ![A, R]⟩ : Shape) src 0xFF800000#32 h hφ hacc (ix2 a r)
      = rowMax fun k : Fin C => src (ix3 a r k) := by
  rw [Ideal.multiReduction_maximumf_single src _ h hφ hacc (ix2 a r)]
  have hf : (src ∘ h.lift (ix2 a r)) = fun k : Fin C => src (ix3 a r k) :=
    funext fun k => congrArg src (lift_last h a r k)
  unfold rowMax
  exact congrArg (fun f => Finset.fold max (Ideal.ofBits .f32 0xFF800000#32) f (Finset.univ : Finset (Fin C))) hf

/-- The host's reduce with a maximum body along the last axis, from the word of -∞, at row `(a, r)`. -/
theorem hostReduce_max_last (x : FVec Ideal ⟨3, ![A, R, C]⟩ .f32) (init : (⟨0, ![]⟩ : Shape).Idx → Ideal .f32)
    (hinit : ∀ i, init i = Ideal.ofBits .f32 0xFF800000#32)
    (h' : (⟨3, ![A, R, C]⟩ : Shape).ReducesTo [2] (⟨2, ![A, R]⟩ : Shape))
    (h : (⟨3, ![A, R, C]⟩ : Shape).Reduces [2] (⟨2, ![A, R]⟩ : Shape))
    (hu : 0 < (⟨0, ![]⟩ : Shape).numel) (a : Fin A) (r : Fin R) :
    Host.reduce FloatOps.maximumf x init h' hu (ix2 a r) = rowMax fun k : Fin C => x (ix3 a r k) := by
  rw [Host.reduce_eq_fold_single FloatOps.maximumf x _ h' h hu, hinit]
  have hf : (x ∘ h.lift (ix2 a r)) = fun k : Fin C => x (ix3 a r k) :=
    funext fun k => congrArg x (lift_last h a r k)
  unfold rowMax
  exact congrArg (fun f => Finset.fold max (Ideal.ofBits .f32 0xFF800000#32) f (Finset.univ : Finset (Fin C))) hf

/-- The kernel's lane sum of row `(a, r)`. -/
theorem multiReduction_add_last (src : FVec Ideal ⟨3, ![A, R, C]⟩ .f32)
    (h : (⟨3, ![A, R, C]⟩ : Shape).Reduces [2] (⟨2, ![A, R]⟩ : Shape)) (hφ : FKind.Formats .f32)
    (hacc : (0x00000000#32 : BitVec 32) = FKind.add.neutral .f32 hφ) (a : Fin A) (r : Fin R) :
    multiReduction .add [2] (⟨2, ![A, R]⟩ : Shape) src 0x00000000#32 h hφ hacc (ix2 a r) = ∑ k : Fin C, src (ix3 a r k) := by
  rw [Ideal.multiReduction_add_single src _ h hφ hacc (ix2 a r)]
  refine Finset.sum_congr rfl fun k _ => ?_
  exact congrArg src (lift_last h a r k)

/-- The host's sum along the last axis from zero, at row `(a, r)`. -/
theorem hostReduceAdd_last (x : FVec Ideal ⟨3, ![A, R, C]⟩ .f32) (init : EReal) (hinit : init = 0)
    (h' : (⟨3, ![A, R, C]⟩ : Shape).ReducesTo [2] (⟨2, ![A, R]⟩ : Shape))
    (h : (⟨3, ![A, R, C]⟩ : Shape).Reduces [2] (⟨2, ![A, R]⟩ : Shape)) (a : Fin A) (r : Fin R) :
    Ideal.hostReduceAdd h' x init (ix2 a r) = ∑ k : Fin C, x (ix3 a r k) := by
  rw [Ideal.hostReduceAdd_single h' h, hinit, zero_add]
  refine Finset.sum_congr rfl fun k _ => ?_
  exact congrArg x (lift_last h a r k)

/-- `[A, R]` recast as `[A, R, 1]` reads `(a, r)` at `(a, r, 0)`. -/
theorem shapeCast_keepdims_apply {α : Type} (v : (⟨2, ![A, R]⟩ : Shape).Idx → α)
    (h : (⟨2, ![A, R]⟩ : Shape).ShapeCasts ⟨3, ![A, R, 1]⟩) (a : Fin A) (r : Fin R) :
    shapeCast ⟨3, ![A, R, 1]⟩ v h (ix3 a r (0 : Fin 1)) = v (ix2 a r) := by
  refine shapeCast_apply v h _ _ ?_
  rw [Shape.rowMajor_val_three, Shape.rowMajor_val_two]
  show a.val * R + r.val = (a.val * R + r.val) * 1 + 0
  omega

/-- `[A, R, 1]` broadcast along the last axis to `[A, R, D]` reads `(a, r, 0)` at `(a, r, d)`, when `A, R ≠ 1` or not. -/
theorem broadcastTo_last_apply {α : Type} (v : (⟨3, ![A, R, 1]⟩ : Shape).Idx → α)
    (h : (⟨3, ![A, R, 1]⟩ : Shape).Broadcasts ⟨3, ![A, R, D]⟩) (a : Fin A) (r : Fin R) (d : Fin D) :
    broadcastTo ⟨3, ![A, R, D]⟩ v h (ix3 a r d) = v (ix3 a r (0 : Fin 1)) := by
  refine broadcastTo_apply v h _ _ fun c => ?_
  match c with
  | ⟨0, _⟩ =>
    show a.val = if A = 1 then 0 else a.val
    split
    · next hA => have := a.isLt; omega
    · rfl
  | ⟨1, _⟩ =>
    show r.val = if R = 1 then 0 else r.val
    split
    · next hR => have := r.isLt; omega
    · rfl
  | ⟨2, _⟩ =>
    show 0 = if (1 : Nat) = 1 then 0 else d.val
    rw [if_pos rfl]

end Cert.LibAxis2

end
-- ==== Proof.LibLeadAxis.lean ====
/-
  Layout steps around a leading axis, read at an index, and a sum along the leading axis.

  A block `[1, A, B]` viewed as `[A, B]` reads `(0, a, b)` at `(a, b)`, and a value `[A, B]` stored as a block
  `[1, A, B]` reads `(a, b)` at `(0, a, b)`. A value `[A, C]` recast as `[A, 1, C]` reads `(a, c)` at `(a, 0, c)`, and
  `[A, 1, C]` broadcast along its middle axis to `[A, R, C]` reads `(a, 0, c)` at every `(a, r, c)`. Over the extended
  reals the sum of an array `[E, R, C]` along its leading axis, from the zero word, is at `(r, c)` the plain sum over
  `e` of the entries `(e, r, c)`. All extents are arbitrary.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibLeadAxis

open Idealize.ShloMosaic Idealize.ShloMosaic.ValueIdx

/-- A block `[1, A, B]` viewed `[A, B]` reads `(0, a, b)` at `(a, b)`. -/
theorem cast_drop_apply {A B : Nat} {α : Type} (v : (⟨3, ![1, A, B]⟩ : Shape).Idx → α)
    (h : (⟨3, ![1, A, B]⟩ : Shape).ShapeCasts ⟨2, ![A, B]⟩) (a : Fin A) (b : Fin B) :
    shapeCast ⟨2, ![A, B]⟩ v h (ix2 a b) = v (ix3 (0 : Fin 1) a b) := by
  refine shapeCast_apply v h _ _ ?_
  rw [Shape.rowMajor_val_three, Shape.rowMajor_val_two]
  show (0 * A + a.val) * B + b.val = a.val * B + b.val
  rw [Nat.zero_mul, Nat.zero_add]

/-- A value `[A, B]` stored as a block `[1, A, B]` reads `(a, b)` at `(0, a, b)`. -/
theorem cast_add_apply {A B : Nat} {α : Type} (v : (⟨2, ![A, B]⟩ : Shape).Idx → α)
    (h : (⟨2, ![A, B]⟩ : Shape).ShapeCasts ⟨3, ![1, A, B]⟩) (a : Fin A) (b : Fin B) :
    shapeCast ⟨3, ![1, A, B]⟩ v h (ix3 (0 : Fin 1) a b) = v (ix2 a b) := by
  refine shapeCast_apply v h _ _ ?_
  rw [Shape.rowMajor_val_three, Shape.rowMajor_val_two]
  show a.val * B + b.val = (0 * A + a.val) * B + b.val
  rw [Nat.zero_mul, Nat.zero_add]

/-- `[A, C]` recast as `[A, 1, C]` reads `(a, c)` at `(a, 0, c)`. -/
theorem cast_mid_apply {A C : Nat} {α : Type} (v : (⟨2, ![A, C]⟩ : Shape).Idx → α)
    (h : (⟨2, ![A, C]⟩ : Shape).ShapeCasts ⟨3, ![A, 1, C]⟩) (a : Fin A) (c : Fin C) :
    shapeCast ⟨3, ![A, 1, C]⟩ v h (ix3 a (0 : Fin 1) c) = v (ix2 a c) := by
  refine shapeCast_apply v h _ _ ?_
  rw [Shape.rowMajor_val_three, Shape.rowMajor_val_two]
  show a.val * C + c.val = (a.val * 1 + 0) * C + c.val
  rw [Nat.mul_one, Nat.add_zero]

/-- `[A, 1, C]` broadcast along the middle axis to `[A, R, C]` reads `(a, 0, c)` at every `(a, r, c)`. -/
theorem broadcast_mid_apply {A R C : Nat} {α : Type} (v : (⟨3, ![A, 1, C]⟩ : Shape).Idx → α)
    (h : (⟨3, ![A, 1, C]⟩ : Shape).Broadcasts ⟨3, ![A, R, C]⟩) (a : Fin A) (r : Fin R) (c : Fin C) :
    broadcastTo ⟨3, ![A, R, C]⟩ v h (ix3 a r c) = v (ix3 a (0 : Fin 1) c) := by
  refine broadcastTo_apply v h _ _ fun k => ?_
  match k with
  | ⟨0, _⟩ =>
    show a.val = if A = 1 then 0 else a.val
    split
    · have := a.isLt; omega
    · rfl
  | ⟨1, _⟩ =>
    show 0 = if (1 : Nat) = 1 then 0 else r.val
    rw [if_pos rfl]
  | ⟨2, _⟩ =>
    show c.val = if C = 1 then 0 else c.val
    split
    · have := c.isLt; omega
    · rfl

/-- The reduced index `(r, c)` with coordinate `e` put back on the leading axis is `(e, r, c)`. -/
theorem lift_lead {E R C : Nat} (h : (⟨3, ![E, R, C]⟩ : Shape).Reduces [0] (⟨2, ![R, C]⟩ : Shape)) (r : Fin R) (c : Fin C)
    (e : Fin ((⟨3, ![E, R, C]⟩ : Shape).size 0)) : h.lift (ix2 r c) e = ix3 (⟨e.val, e.isLt⟩ : Fin E) r c := by
  funext k; apply Fin.ext
  fin_cases k <;> rfl

/-- A sum along the leading axis of `[E, R, C]`, from the zero word, at `(r, c)`. -/
theorem sum_lead_apply {E R C : Nat} (src : FVec Ideal ⟨3, ![E, R, C]⟩ .f32)
    (h : (⟨3, ![E, R, C]⟩ : Shape).Reduces [0] (⟨2, ![R, C]⟩ : Shape)) (hφ : FKind.Formats .f32)
    (hacc : (0x00000000#32 : BitVec 32) = FKind.add.neutral .f32 hφ) (r : Fin R) (c : Fin C) :
    multiReduction .add [0] (⟨2, ![R, C]⟩ : Shape) src 0x00000000#32 h hφ hacc (ix2 r c) = ∑ e : Fin E, src (ix3 e r c) := by
  refine (Ideal.multiReduction_add_single src _ h hφ hacc (ix2 r c)).trans ?_
  exact Finset.sum_congr rfl fun e _ => congrArg src (lift_lead h r c e)

end Cert.LibLeadAxis

end
-- ==== Proof.Spec.lean ====
/-
  The attention-by-distance map as one function of the two argument arrays, over the extended reals.

  For queries `q[b, i, ·]` and keys `y[b, j, ·]`, vectors of 128 entries, the score of the pair `(i, j)` in batch `b`
  is minus the mean absolute difference,
      att[b, i, j] = −( (Σ_d |q[b, i, d] − y[b, j, d]|) · (1/128) ) ,
  and the similarity of query `i` is its best score, `sim[b, 0, i] = max_j att[b, i, j]`, the maximum folded from −∞.

  Two arrangements of this map have to meet it. One divides the sum by 128 where the other multiplies it by the f32
  number 2⁻⁷: on the extended reals the quotient by a nonzero real IS the product with its reciprocal, at the
  infinities too. One adds the 128 terms in one sum from zero where the other adds them sixteen at a time into a
  running total: addition of extended reals is commutative and associative, so a sum over the first `16·(n+1)`
  positions is the sum over the first `16·n` plus the next sixteen terms. Neither law asks the entries to be finite.
-/
import Mathlib
import Idealize.ShloMosaic.PureOps.Ideal
import Idealize.ShloMosaic.PureOps.Ideal.Laws
import Idealize.ShloMosaic.Lib.ValueIdx
import proofs.«115117_j42649025249395_2_alg».proof.Proof.LibSoftmaxRow

noncomputable section

open scoped BigOperators

namespace Cert.AttDist

open Idealize.ShloMosaic Idealize.ShloMosaic.ValueIdx Cert.LibSoftmaxRow

/-! ## The map -/

/-- The absolute value of an extended real, `max a (−a)`. -/
def absE (a : EReal) : EReal := max a (-a)

/-- An argument array: 4 batches of 512 vectors of 128 entries. -/
abbrev Arr : Type := (⟨3, ![4, 512, 128]⟩ : Shape).Idx → EReal

/-- The L1 distance between query `i` and key `j` of batch `b`. -/
def dist (q y : Arr) (b : Fin 4) (i j : Fin 512) : EReal :=
  ∑ d : Fin 128, absE (q (ix3 b i d) - y (ix3 b j d))

/-- The score: minus the mean absolute difference. -/
def att (q y : Arr) (b : Fin 4) (i j : Fin 512) : EReal :=
  -(dist q y b i j * ((1 / 128 : ℝ) : EReal))

/-- The scores as an array `[4, 512, 512]`. -/
def attArr (q y : Arr) : (⟨3, ![4, 512, 512]⟩ : Shape).Idx → EReal := fun k => att q y (k 0) (k 1) (k 2)

/-- The best score of query `i` over the 512 keys. -/
def sim (q y : Arr) (b : Fin 4) (i : Fin 512) : EReal := rowMax fun j : Fin 512 => att q y b i j

/-- The best scores as an array `[4, 1, 512]`. -/
def simArr (q y : Arr) : (⟨3, ![4, 1, 512]⟩ : Shape).Idx → EReal := fun k => sim q y (k 0) (k 2)

/-! ## The three f32 words the two programs spell -/

/-- The word `0x43000000` is 128. -/
theorem ofBits_128 : Ideal.ofBits .f32 0x43000000#32 = ((128 : ℝ) : EReal) := by
  simp [Ideal.ofBits, Ideal.ieee, -EReal.coe_mul]; norm_num

/-- The word `0x3C000000` is 2⁻⁷ = 1/128, exactly. -/
theorem ofBits_inv128 : Ideal.ofBits .f32 0x3C000000#32 = ((1 / 128 : ℝ) : EReal) := by
  simp [Ideal.ofBits, Ideal.ieee, -EReal.coe_mul]; norm_num

/-- The quotient by 128 is the product with 1/128, on every extended real. -/
theorem div_128 (x : EReal) : Ideal.div x (Ideal.ofBits .f32 0x43000000#32) = x * ((1 / 128 : ℝ) : EReal) := by
  rw [ofBits_128]; exact Ideal.div_coe (by norm_num) x

/-! ## A sum taken sixteen terms at a time -/

/-- A family over `Fin N` continued by zero over the naturals. -/
def ext0 {N : ℕ} (g : Fin N → EReal) (d : ℕ) : EReal := if h : d < N then g ⟨d, h⟩ else 0

theorem ext0_of_lt {N : ℕ} (g : Fin N → EReal) {d : ℕ} (h : d < N) : ext0 g d = g ⟨d, h⟩ := dif_pos h

/-- Over the first `N` naturals the continued family sums to the family's sum. -/
theorem sum_range_ext0 {N : ℕ} (g : Fin N → EReal) : ∑ d ∈ Finset.range N, ext0 g d = ∑ d : Fin N, g d := by
  rw [Finset.sum_range]
  exact Finset.sum_congr rfl fun d _ => ext0_of_lt g d.isLt

/-- One more chunk: the sum over the first `16·(n+1)` positions is the sum over the first `16·n` plus the next sixteen
    terms. -/
theorem sum_range_chunk (f : ℕ → EReal) (n : ℕ) :
    ∑ d ∈ Finset.range (16 * (n + 1)), f d = ∑ d ∈ Finset.range (16 * n), f d + ∑ e : Fin 16, f (16 * n + e.val) := by
  rw [show 16 * (n + 1) = 16 * n + 16 by ring, Finset.sum_range_add]
  exact congrArg (_ + ·) (Finset.sum_range fun x => f (16 * n + x))

end Cert.AttDist

end
-- ==== Proof.Payloads.lean ====
/-
  The kernel body's arithmetic, read at an index, over the extended reals.

  One trip of the body's loop takes sixteen rows of the transposed query block, `qc[e, r]`, and of the transposed key
  block, `yc[e, j]`, and adds to the running total at `(r, j)` the sixteen absolute differences `|qc[e, r] − yc[e, j]|`:
  each row block is recast as a column `[16, 128, 1]` resp. a row `[16, 1, 512]`, both are broadcast to `[16, 128, 512]`,
  subtracted, and summed along the leading axis. After the loop the total is multiplied by 2⁻⁷ and subtracted from zero —
  which is its negative —, stored as the block of scores, and its maximum along each row, from −∞, is stored as a column.
-/
import proofs.«115117_j42649025249395_2_alg».proof.Proof.Gen.KernelIdeal.Skeleton
import Idealize.ShloMosaic.Lib.Pipeline.Value
import Idealize.ShloMosaic.Lib.ValueIdx
import Idealize.ShloMosaic.PureOps.Ideal.Laws
import proofs.«115117_j42649025249395_2_alg».proof.Proof.LibRowReduce
import proofs.«115117_j42649025249395_2_alg».proof.Proof.LibAxis2
import proofs.«115117_j42649025249395_2_alg».proof.Proof.LibLeadAxis
import proofs.«115117_j42649025249395_2_alg».proof.Proof.Spec

noncomputable section

open scoped BigOperators

namespace Cert.AttDist.Body

open Cert.KernelIdeal Cert.KernelIdeal.Gen Idealize.ShloMosaic Idealize.ShloMosaic.ValueIdx Cert.AttDist Cert.LibLeadAxis

/-! ## One trip of the loop -/

/-- What one trip adds at `(r, j)`: the sixteen absolute differences of the loaded rows. -/
theorem pay2_apply (acc : FVec Ideal S128x512 .f32) (v18 : Vec Ideal S1x16x128 .f32) (v21 : Vec Ideal S1x16x512 .f32)
    (r : Fin 128) (j : Fin 512) :
    k0_pay2 acc v18 v21 (ix2 r j) = acc (ix2 r j) + ∑ e : Fin 16, absE (v18 (ix3 (0 : Fin 1) e r) - v21 (ix3 (0 : Fin 1) e j)) := by
  unfold k0_pay2
  refine congrArg (acc (ix2 r j) + ·) ?_
  refine (sum_lead_apply _ reduces_S16x128x512_S128x512 (.inl rfl) rfl r j).trans ?_
  refine Finset.sum_congr rfl fun e _ => ?_
  have hq : broadcastTo S16x128x512 (shapeCast S16x128x1 (shapeCast S16x128 v18 shapeCasts_S1x16x128_S16x128) shapeCasts_S16x128_S16x128x1)
      broadcasts_S16x128x1_S16x128x512 (ix3 e r j) = v18 (ix3 (0 : Fin 1) e r) :=
    (Cert.LibAxis2.broadcastTo_last_apply _ broadcasts_S16x128x1_S16x128x512 e r j).trans
      ((Cert.LibAxis2.shapeCast_keepdims_apply _ shapeCasts_S16x128_S16x128x1 e r).trans
        (cast_drop_apply v18 shapeCasts_S1x16x128_S16x128 e r))
  have hy : broadcastTo S16x128x512 (shapeCast S16x1x512 (shapeCast S16x512 v21 shapeCasts_S1x16x512_S16x512) shapeCasts_S16x512_S16x1x512)
      broadcasts_S16x1x512_S16x128x512 (ix3 e r j) = v21 (ix3 (0 : Fin 1) e j) :=
    (broadcast_mid_apply _ broadcasts_S16x1x512_S16x128x512 e r j).trans
      ((cast_mid_apply _ shapeCasts_S16x512_S16x1x512 e j).trans
        (cast_drop_apply v21 shapeCasts_S1x16x512_S16x512 e j))
  exact congrArg₂ (fun a b : EReal => absE (a - b)) hq hy

/-! ## After the loop -/

/-- The score at `(r, j)` from the loop's total: minus the total times 1/128. -/
theorem pay3_apply (v2 : FVec Ideal S128x512 .f32) (r : Fin 128) (j : Fin 512) :
    k0_pay3 v2 (ix2 r j) = -(v2 (ix2 r j) * ((1 / 128 : ℝ) : EReal)) := by
  unfold k0_pay3
  show Ideal.ofBits .f32 0x00000000#32 - v2 (ix2 r j) * Ideal.ofBits .f32 0x3C000000#32 = _
  rw [Ideal.ofBits_zero_f32, zero_sub, ofBits_inv128]

/-- The stored block of scores at `(0, r, j)`. -/
theorem pay4_apply (v2 : FVec Ideal S128x512 .f32) (r : Fin 128) (j : Fin 512) :
    k0_pay4 v2 (ix3 (0 : Fin 1) r j) = k0_pay3 v2 (ix2 r j) := by
  unfold k0_pay4
  exact cast_add_apply (k0_pay3 v2) shapeCasts_S128x512_S1x128x512 r j

/-- The stored column of row maxima at `(0, r, 0)`. -/
theorem pay5_apply (v2 : FVec Ideal S128x512 .f32) (r : Fin 128) :
    k0_pay5 v2 (ix3 (0 : Fin 1) r (0 : Fin 1)) = Cert.LibRowReduce.rowMax fun j : Fin 512 => k0_pay3 v2 (ix2 r j) := by
  unfold k0_pay5
  refine (cast_add_apply _ shapeCasts_S128x1_S1x128x1 r (0 : Fin 1)).trans ?_
  refine (Cert.LibRowReduce.shapeCast_col_apply _ shapeCasts_S128_S128x1 r).trans ?_
  exact Cert.LibRowReduce.multiReduction_max_row (k0_pay3 v2) reduces_S128x512_S128 (.inl rfl) rfl r

end Cert.AttDist.Body

end
-- ==== Proof.LoopValue.lean ====
/-
  What the body leaves in its two output blocks, as a function of the two staged input blocks.

  The body's loop carries the running total through eight trips; trip `k` loads rows `16·k … 16·k + 15` of both staged
  blocks and adds their sixteen absolute differences to the total at every `(r, j)`. So before trip `n` the total at
  `(r, j)` is the sum of the absolute differences over the first `16·n` rows, and after the eighth trip over all 128.
  The body then stores minus that sum times 1/128 as the block of scores and the row maxima of the scores as a column.
-/
import proofs.«115117_j42649025249395_2_alg».proof.Proof.Gen.KernelIdeal.Frame
import Idealize.ShloMosaic.Lib.Pipeline.Value
import Idealize.ShloMosaic.Lib.WholeRead
import proofs.«115117_j42649025249395_2_alg».proof.Proof.Payloads

set_option maxRecDepth 16384

noncomputable section

open scoped BigOperators

namespace Cert.AttDist.Loop

open Cert.KernelIdeal Cert.KernelIdeal.Gen Idealize.ShloMosaic Idealize.ShloMosaic.TcCoe Idealize.ShloMosaic.Tactic Idealize.SL.Sem
open Idealize.ShloMosaic.ValueIdx Cert.AttDist Cert.AttDist.Body

/-! ## One trip, and the two stored blocks, for any float values -/

section AnyF

variable {F : FTy → Type} [FloatOps F]

/-- What one trip yields: the trip's arithmetic of the carried value and of the two row slices it loads. -/
theorem trip_eq (𝒱 : Variants) (c : Dev nD) (bd : Option 𝒱.V) (i : grid0.Coords) (arg2 : Memref sig .tc .vmem S1x128x128 .f32) (harg2 : arg2.IsWhole) (arg3 : Memref sig .tc .vmem S1x128x512 .f32) (harg3 : arg3.IsWhole)
    (arg4 : Memref sig .tc .vmem S1x128x512 .f32) (harg4 : arg4.IsWhole) (arg5 : Memref sig .tc .vmem S1x128x1 .f32) (harg5 : arg5.IsWhole)
    (X2 : BufTy.Contents (Elt F) arg2.view.ty) (X3 : BufTy.Contents (Elt F) arg3.view.ty) (k : Fin k0_t1_loop.trips)
    (acc : FVec F S128x512 .f32) :
    tripR_k0_t1 (F := F) 𝒱 c bd i arg2 harg2 arg3 harg3 arg4 harg4 arg5 harg5 X2 X3 k acc
      = k0_pay2 acc
          (View.readAt (Elt F) arg2.view (Rect.unit (s := S1x128x128) (k0_off1 k) S1x16x128.size (k0_off1_inb k)).toLoadRect X2)
          (View.readAt (Elt F) arg3.view (Rect.unit (s := S1x128x512) (k0_off2 k) S1x16x512.size (k0_off2_inb k)).toLoadRect X3) := by
  unfold tripR_k0_t1 trip_k0_t1
  rfl

theorem hz3 : (![0, 0, 0] : Fin 3 → Nat) = fun _ => 0 := funext fun a => by fin_cases a <;> rfl

/-- The carried value after the last trip, from the two staged blocks. -/
abbrev total (c : Dev nD) (i : grid0.Coords) (arg2 : Memref sig .tc .vmem S1x128x128 .f32) (harg2 : arg2.IsWhole) (arg3 : Memref sig .tc .vmem S1x128x512 .f32) (harg3 : arg3.IsWhole)
    (arg4 : Memref sig .tc .vmem S1x128x512 .f32) (harg4 : arg4.IsWhole) (arg5 : Memref sig .tc .vmem S1x128x1 .f32) (harg5 : arg5.IsWhole)
    (x0 : Vec F S1x128x128 .f32) (x1 : Vec F S1x128x512 .f32) : FVec F S128x512 .f32 :=
  st_k0_t1 (F := F) Variants.none c none i arg2 harg2 arg3 harg3 arg4 harg4 arg5 harg5 (harg2.unread x0) (harg3.unread x1) k0_pay1 k0_t1_loop.trips

/-- The block of scores the body leaves is its store's payload of the carried value. -/
theorem scores_block (c : Dev nD) (i : grid0.Coords) (arg2 : Memref sig .tc .vmem S1x128x128 .f32) (harg2 : arg2.IsWhole) (arg3 : Memref sig .tc .vmem S1x128x512 .f32) (harg3 : arg3.IsWhole)
    (arg4 : Memref sig .tc .vmem S1x128x512 .f32) (harg4 : arg4.IsWhole) (arg5 : Memref sig .tc .vmem S1x128x1 .f32) (harg5 : arg5.IsWhole)
    (x0 : Vec F S1x128x128 .f32) (x1 : Vec F S1x128x512 .f32) :
    out0_A_2 (F := F) c i arg2 harg2 arg3 harg3 arg4 harg4 arg5 harg5 x0 x1 = k0_pay4 (total c i arg2 harg2 arg3 harg3 arg4 harg4 arg5 harg5 x0 x1) := by
  unfold out0_A_2
  rw [View.read_writes_eq_canon _ _ _ (cover0_A_2 c i arg2 harg2 arg3 harg3 arg4 harg4 arg5 harg5 x0 x1)]
  unfold kernelRun0_A
  dsimp only
  exact View.canon_unit_zero hz3 _ _

/-- The column of best scores the body leaves is its store's payload of the carried value. -/
theorem best_block (c : Dev nD) (i : grid0.Coords) (arg2 : Memref sig .tc .vmem S1x128x128 .f32) (harg2 : arg2.IsWhole) (arg3 : Memref sig .tc .vmem S1x128x512 .f32) (harg3 : arg3.IsWhole)
    (arg4 : Memref sig .tc .vmem S1x128x512 .f32) (harg4 : arg4.IsWhole) (arg5 : Memref sig .tc .vmem S1x128x1 .f32) (harg5 : arg5.IsWhole)
    (x0 : Vec F S1x128x128 .f32) (x1 : Vec F S1x128x512 .f32) :
    out0_A_3 (F := F) c i arg2 harg2 arg3 harg3 arg4 harg4 arg5 harg5 x0 x1 = k0_pay5 (total c i arg2 harg2 arg3 harg3 arg4 harg4 arg5 harg5 x0 x1) := by
  unfold out0_A_3
  rw [View.read_writes_eq_canon _ _ _ (cover0_A_3 c i arg2 harg2 arg3 harg3 arg4 harg4 arg5 harg5 x0 x1)]
  unfold kernelRun0_A
  dsimp only
  exact View.canon_unit_zero hz3 _ _

end AnyF

/-! ## The carried value over the extended reals -/

/-- The absolute difference of row `d` of the two staged blocks at `(r, j)`. -/
def term (x0 : Vec Ideal S1x128x128 .f32) (x1 : Vec Ideal S1x128x512 .f32) (r : Fin 128) (j : Fin 512) (d : Fin 128) : EReal :=
  absE (x0 (ix3 (0 : Fin 1) d r) - x1 (ix3 (0 : Fin 1) d j))

/-- Sixteen rows from row `16·n` of a block `[1, 128, C]`: entry `(0, e, c)` of the slice is entry `(0, 16·n + e, c)`. -/
theorem rows_idx {C : Nat} (off : Fin 3 → Nat) (n : Nat) (ho : off = ![0, 16 * n, 0])
    (inb : ∀ a, off a + (⟨3, ![1, 16, C]⟩ : Shape).size a ≤ (⟨3, ![1, 128, C]⟩ : Shape).size a) (e : Fin 16) (c : Fin C)
    (h : 16 * n + e.val < 128) :
    (Rect.unit (s := ⟨3, ![1, 128, C]⟩) off (⟨3, ![1, 16, C]⟩ : Shape).size inb).toLoadRect.idx (ix3 (0 : Fin 1) e c)
      = ix3 (0 : Fin 1) (⟨16 * n + e.val, h⟩ : Fin 128) c := by
  subst ho
  funext a; apply Fin.ext
  match a with
  | ⟨0, _⟩ => show 0 + 1 * 0 = 0; rfl
  | ⟨1, _⟩ => show 16 * n + 1 * e.val = 16 * n + e.val; omega
  | ⟨2, _⟩ => show 0 + 1 * c.val = c.val; omega

/-- Before trip `n` the carried value at `(r, j)` is the sum of the absolute differences over the first `16·n` rows. -/
theorem carried_apply (𝒱 : Variants) (c : Dev nD) (bd : Option 𝒱.V) (i : grid0.Coords) (arg2 : Memref sig .tc .vmem S1x128x128 .f32) (harg2 : arg2.IsWhole) (arg3 : Memref sig .tc .vmem S1x128x512 .f32) (harg3 : arg3.IsWhole)
    (arg4 : Memref sig .tc .vmem S1x128x512 .f32) (harg4 : arg4.IsWhole) (arg5 : Memref sig .tc .vmem S1x128x1 .f32) (harg5 : arg5.IsWhole)
    (x0 : Vec Ideal S1x128x128 .f32) (x1 : Vec Ideal S1x128x512 .f32) (r : Fin 128) (j : Fin 512) :
    ∀ n : ℕ, n ≤ k0_t1_loop.trips →
      st_k0_t1 (F := Ideal) 𝒱 c bd i arg2 harg2 arg3 harg3 arg4 harg4 arg5 harg5 (harg2.unread x0) (harg3.unread x1) k0_pay1 n (ix2 r j)
        = ∑ d ∈ Finset.range (16 * n), ext0 (term x0 x1 r j) d := by
  intro n
  induction n with
  | zero =>
    intro _
    rw [Nat.mul_zero, Finset.range_zero, Finset.sum_empty]
    exact Ideal.ofBits_zero_f32
  | succ n ih =>
    intro hn
    have hk : n < k0_t1_loop.trips := hn
    have h8 : n < 8 := Nat.lt_of_lt_of_le hk k0_t1_abs.2.1
    refine (congrFun (st_k0_t1_succ (F := Ideal) 𝒱 c bd i arg2 harg2 arg3 harg3 arg4 harg4 arg5 harg5 (harg2.unread x0) (harg3.unread x1) k0_pay1 ⟨n, hk⟩) (ix2 r j)).trans ?_
    refine (congrFun (trip_eq 𝒱 c bd i arg2 harg2 arg3 harg3 arg4 harg4 arg5 harg5 (harg2.unread x0) (harg3.unread x1) ⟨n, hk⟩ _) (ix2 r j)).trans ?_
    refine (pay2_apply _ _ _ r j).trans ?_
    rw [sum_range_chunk, ih (Nat.le_of_lt hk)]
    refine congrArg (_ + ·) (Finset.sum_congr rfl fun e _ => ?_)
    have he : 16 * n + e.val < 128 := by have := e.isLt; omega
    rw [ext0_of_lt _ he]
    unfold term
    refine congrArg₂ (fun a b : EReal => absE (a - b)) ?_ ?_
    · refine (harg2.readAt_unread x0 (Rect.unit (s := S1x128x128) (k0_off1 ⟨n, hk⟩) S1x16x128.size (k0_off1_inb ⟨n, hk⟩)).toLoadRect
        (ix3 (0 : Fin 1) e r)).trans (congrArg x0 ?_)
      exact rows_idx _ n (k0_off1_eq ⟨n, hk⟩) _ e r he
    · refine (harg3.readAt_unread x1 (Rect.unit (s := S1x128x512) (k0_off2 ⟨n, hk⟩) S1x16x512.size (k0_off2_inb ⟨n, hk⟩)).toLoadRect
        (ix3 (0 : Fin 1) e j)).trans (congrArg x1 ?_)
      exact rows_idx _ n (k0_off2_eq ⟨n, hk⟩) _ e j he

/-- The loop makes eight trips. -/
theorem trips_eq : k0_t1_loop.trips = 8 := by decide

/-- After the last trip the carried value at `(r, j)` is the sum of the absolute differences over all 128 rows. -/
theorem total_apply (c : Dev nD) (i : grid0.Coords) (arg2 : Memref sig .tc .vmem S1x128x128 .f32) (harg2 : arg2.IsWhole) (arg3 : Memref sig .tc .vmem S1x128x512 .f32) (harg3 : arg3.IsWhole)
    (arg4 : Memref sig .tc .vmem S1x128x512 .f32) (harg4 : arg4.IsWhole) (arg5 : Memref sig .tc .vmem S1x128x1 .f32) (harg5 : arg5.IsWhole)
    (x0 : Vec Ideal S1x128x128 .f32) (x1 : Vec Ideal S1x128x512 .f32) (r : Fin 128) (j : Fin 512) :
    total (F := Ideal) c i arg2 harg2 arg3 harg3 arg4 harg4 arg5 harg5 x0 x1 (ix2 r j) = ∑ d : Fin 128, term x0 x1 r j d := by
  refine (carried_apply Variants.none c none i arg2 harg2 arg3 harg3 arg4 harg4 arg5 harg5 x0 x1 r j k0_t1_loop.trips (Nat.le_refl _)).trans ?_
  rw [trips_eq]
  exact sum_range_ext0 (term x0 x1 r j)

/-- The block of scores at `(0, r, j)`: minus the mean absolute difference of the staged rows. -/
theorem scores_block_apply (c : Dev nD) (i : grid0.Coords) (arg2 : Memref sig .tc .vmem S1x128x128 .f32) (harg2 : arg2.IsWhole) (arg3 : Memref sig .tc .vmem S1x128x512 .f32) (harg3 : arg3.IsWhole)
    (arg4 : Memref sig .tc .vmem S1x128x512 .f32) (harg4 : arg4.IsWhole) (arg5 : Memref sig .tc .vmem S1x128x1 .f32) (harg5 : arg5.IsWhole)
    (x0 : Vec Ideal S1x128x128 .f32) (x1 : Vec Ideal S1x128x512 .f32) (r : Fin 128) (j : Fin 512) :
    out0_A_2 (F := Ideal) c i arg2 harg2 arg3 harg3 arg4 harg4 arg5 harg5 x0 x1 (ix3 (0 : Fin 1) r j) = -((∑ d : Fin 128, term x0 x1 r j d) * ((1 / 128 : ℝ) : EReal)) := by
  rw [scores_block]
  refine (pay4_apply _ r j).trans ((pay3_apply _ r j).trans ?_)
  rw [total_apply]

/-- The column of best scores at `(0, r, 0)`: the maximum over `j`, from −∞, of the block's scores. -/
theorem best_block_apply (c : Dev nD) (i : grid0.Coords) (arg2 : Memref sig .tc .vmem S1x128x128 .f32) (harg2 : arg2.IsWhole) (arg3 : Memref sig .tc .vmem S1x128x512 .f32) (harg3 : arg3.IsWhole)
    (arg4 : Memref sig .tc .vmem S1x128x512 .f32) (harg4 : arg4.IsWhole) (arg5 : Memref sig .tc .vmem S1x128x1 .f32) (harg5 : arg5.IsWhole)
    (x0 : Vec Ideal S1x128x128 .f32) (x1 : Vec Ideal S1x128x512 .f32) (r : Fin 128) :
    out0_A_3 (F := Ideal) c i arg2 harg2 arg3 harg3 arg4 harg4 arg5 harg5 x0 x1 (ix3 (0 : Fin 1) r (0 : Fin 1))
      = Cert.LibSoftmaxRow.rowMax fun j : Fin 512 => -((∑ d : Fin 128, term x0 x1 r j d) * ((1 / 128 : ℝ) : EReal)) := by
  rw [best_block]
  refine (pay5_apply _ r).trans ?_
  show Cert.LibSoftmaxRow.rowMax _ = _
  refine congrArg Cert.LibSoftmaxRow.rowMax (funext fun j => ?_)
  refine (pay3_apply _ r j).trans ?_
  rw [total_apply]

end Cert.AttDist.Loop

end
-- ==== Proof.Arrays.lean ====
/-
  From what each grid point writes back to the two output arrays after the region.

  The region runs over 4 × 4 points `(b, p)`. It finds the queries and the keys transposed, `[b, d, i]`; at point
  `(b, p)` the staged query block is rows `128·p … 128·p + 127` of batch `b` (entry `(0, d, r)` is `q[b, 128·p + r, d]`)
  and the staged key block is all of batch `b` (entry `(0, d, j)` is `y[b, j, d]`). So the block of scores the body
  leaves is block `(b, p, 0)` of the array of scores, and its column of best scores is block `(b, p, 0)` of the best
  scores laid out `[b, i, 0]`. The sixteen blocks tile each array, so after the region each array IS that function.
-/
import proofs.«115117_j42649025249395_2_alg».proof.Proof.Gen.KernelIdeal.Frame
import Idealize.ShloMosaic.Lib.Pipeline.Value
import Idealize.ShloMosaic.Lib.StableHlo.Run
import proofs.«115117_j42649025249395_2_alg».proof.Proof.LoopValue

set_option maxRecDepth 16384

noncomputable section

open scoped BigOperators

namespace Cert.AttDist.Arrays

open Cert.KernelIdeal Cert.KernelIdeal.Gen Idealize.ShloMosaic Idealize.ShloMosaic.TcCoe Idealize.SL.Sem Idealize.ShloMosaic.StableHlo
open Idealize.ShloMosaic.Pipeline (Dat)
open Idealize.ShloMosaic.ValueIdx Cert.AttDist Cert.AttDist.Loop

variable (m : (ℓ : Loc nD τ sig) → Buf (Elt Ideal) ℓ)

/-- The best scores laid out `[4, 512, 1]`, as the region writes them. -/
def simCol (q y : Arr) : (⟨3, ![4, 512, 1]⟩ : Shape).Idx → EReal := fun k => sim q y (k 0) (k 1)

/-! ## The arrays the region finds -/

/-- The region finds the queries transposed. -/
theorem found_q (c : Dev nD) : (V m c main_v0 : S4x128x512.Idx → EReal)
    = transpose S4x128x512 [0, 2, 1] (m ((c : Thread nD τ).loc main_arg0)) transposes_S4x512x128_S4x128x512_0_2_1 := by
  show StableHlo.after hostOps0 (fun b => m (c, b)) (Proc.devRef .tc main_v0) = _
  after_results

/-- The region finds the keys transposed. -/
theorem found_y (c : Dev nD) : (V m c main_v1 : S4x128x512.Idx → EReal)
    = transpose S4x128x512 [0, 2, 1] (m ((c : Thread nD τ).loc main_arg1)) transposes_S4x512x128_S4x128x512_0_2_1 := by
  show StableHlo.after hostOps0 (fun b => m (c, b)) (Proc.devRef .tc main_v1) = _
  after_results

/-! ## The printed index maps, decided over the sixteen points -/

/-- The query window follows the output's batch and row block, the key window its batch; the best-score window moves
    with the score window; the output's block indices stay in their ranges. -/
theorem idx_facts : ∀ t : Fin cfg0.N,
    win0_0.index t (0 : Fin 3) = win0_2.index t (0 : Fin 3) ∧ win0_0.index t (1 : Fin 3) = 0
    ∧ win0_0.index t (2 : Fin 3) = win0_2.index t (1 : Fin 3)
    ∧ win0_1.index t (0 : Fin 3) = win0_2.index t (0 : Fin 3) ∧ win0_1.index t (1 : Fin 3) = 0 ∧ win0_1.index t (2 : Fin 3) = 0
    ∧ win0_3.index t (0 : Fin 3) = win0_2.index t (0 : Fin 3) ∧ win0_3.index t (1 : Fin 3) = win0_2.index t (1 : Fin 3)
    ∧ win0_3.index t (2 : Fin 3) = 0
    ∧ win0_2.index t (2 : Fin 3) = 0 ∧ win0_2.index t (0 : Fin 3) ≤ 3 ∧ win0_2.index t (1 : Fin 3) ≤ 3 :=
  (by decide +kernel : ∀ t : Fin grid0.N, _)

/-- Every block `(b, p, 0)` of the score array is some point's. -/
theorem idx_onto : ∀ (b p : Fin 4), ∃ t : Fin cfg0.N, win0_2.index t = ![b.val, p.val, 0] :=
  (by decide +kernel : ∀ (b p : Fin 4), ∃ t : Fin grid0.N, win0_2.index t = ![b.val, p.val, 0])

/-! ## The staged blocks -/

/-- The staged query block: entry `(0, d, r)` is entry `d` of query `128·p + r` of the point's batch. -/
theorem qblock_apply (c : Dev nD) (t : Fin cfg0.N) (d r : Fin 128) (B : Fin 4) (I : Fin 512)
    (hB : B.val = win0_0.index t (0 : Fin 3)) (hI : I.val = win0_0.index t (2 : Fin 3) * 128 + r.val) :
    iblk m c 0 t (ix3 (0 : Fin 1) d r) = (m ((c : Thread nD τ).loc main_arg0)) (ix3 B I d) := by
  obtain ⟨-, e1, -⟩ := idx_facts t
  unfold iblk
  show V m c main_v0 (((cfg0.win 0).blk t).view.emb (ix3 (0 : Fin 1) d r)) = _
  refine (congrFun (found_q m c) _).trans ?_
  refine transpose_apply [0, 2, 1] _ transposes_S4x512x128_S4x128x512_0_2_1 _ (ix3 B I d) (fun a => ?_)
  match a with
  | ⟨0, _⟩ => show B.val = win0_0.index t (0 : Fin 3) * 1 + 1 * 0; omega
  | ⟨1, _⟩ => show d.val = win0_0.index t (1 : Fin 3) * 128 + 1 * d.val; omega
  | ⟨2, _⟩ => show I.val = win0_0.index t (2 : Fin 3) * 128 + 1 * r.val; omega

/-- The staged key block: entry `(0, d, j)` is entry `d` of key `j` of the point's batch. -/
theorem yblock_apply (c : Dev nD) (t : Fin cfg0.N) (d : Fin 128) (j : Fin 512) (B : Fin 4)
    (hB : B.val = win0_1.index t (0 : Fin 3)) :
    iblk m c 1 t (ix3 (0 : Fin 1) d j) = (m ((c : Thread nD τ).loc main_arg1)) (ix3 B j d) := by
  obtain ⟨-, -, -, -, e4, e5, -⟩ := idx_facts t
  unfold iblk
  show V m c main_v1 (((cfg0.win 1).blk t).view.emb (ix3 (0 : Fin 1) d j)) = _
  refine (congrFun (found_y m c) _).trans ?_
  refine transpose_apply [0, 2, 1] _ transposes_S4x512x128_S4x128x512_0_2_1 _ (ix3 B j d) (fun a => ?_)
  match a with
  | ⟨0, _⟩ => show B.val = win0_1.index t (0 : Fin 3) * 1 + 1 * 0; omega
  | ⟨1, _⟩ => show d.val = win0_1.index t (1 : Fin 3) * 128 + 1 * d.val; omega
  | ⟨2, _⟩ => show j.val = win0_1.index t (2 : Fin 3) * 512 + 1 * j.val; omega

/-- The mean-absolute-difference score of the staged rows is the score of the queries and keys they are. -/
theorem score_of_blocks (c : Dev nD) (t : Fin cfg0.N) (r : Fin 128) (j : Fin 512) (B : Fin 4) (I : Fin 512)
    (hB : B.val = win0_2.index t (0 : Fin 3)) (hI : I.val = win0_2.index t (1 : Fin 3) * 128 + r.val) :
    -((∑ d : Fin 128, term (iblk m c 0 t) (iblk m c 1 t) r j d) * ((1 / 128 : ℝ) : EReal))
      = att (m ((c : Thread nD τ).loc main_arg0)) (m ((c : Thread nD τ).loc main_arg1)) B I j := by
  obtain ⟨e0, -, e2, e3, -⟩ := idx_facts t
  unfold att dist
  refine congrArg (fun s : EReal => -(s * ((1 / 128 : ℝ) : EReal))) (Finset.sum_congr rfl fun d _ => ?_)
  unfold term
  exact congrArg₂ (fun a b : EReal => absE (a - b))
    (qblock_apply m c t d r B I (by omega) (by omega)) (yblock_apply m c t d j B (by omega))

/-! ## What a point writes back -/

/-- The block of scores the body leaves at point `t`, at any of its entries, is the score array there. -/
theorem scores_point (c : Dev nD) (t : Fin cfg0.N) (Y : S1x128x512.Idx) :
    out0_A_2 (F := Ideal) c (grid0.coords t) (ms0_0 t) (hs0_0 t) (ms0_1 t) (hs0_1 t) (ms0_2 t) (hs0_2 t) (ms0_3 t) (hs0_3 t) (iblk m c 0 t) (iblk m c 1 t) Y
      = attArr (m ((c : Thread nD τ).loc main_arg0)) (m ((c : Thread nD τ).loc main_arg1)) (((cfg0.win 2).blk t).view.emb Y) := by
  obtain ⟨r, j, rfl⟩ : ∃ (r : Fin 128) (j : Fin 512), Y = ix3 (0 : Fin 1) r j :=
    ⟨Y 1, Y 2, funext fun a => match a with
      | ⟨0, _⟩ => Fin.ext (by show (Y 0).val = 0; have h : (Y 0).val < 1 := (Y 0).isLt; omega)
      | ⟨1, _⟩ => rfl
      | ⟨2, _⟩ => rfl⟩
  obtain ⟨-, -, -, -, -, -, -, -, -, e9, -⟩ := idx_facts t
  refine (scores_block_apply c (grid0.coords t) (ms0_0 t) (hs0_0 t) (ms0_1 t) (hs0_1 t) (ms0_2 t) (hs0_2 t) (ms0_3 t) (hs0_3 t) (iblk m c 0 t) (iblk m c 1 t) r j).trans ?_
  refine (score_of_blocks m c t r j _ _ ?_ ?_).trans (congrArg (att (m ((c : Thread nD τ).loc main_arg0)) (m ((c : Thread nD τ).loc main_arg1)) _ _) ?_)
  · show win0_2.index t (0 : Fin 3) * 1 + 1 * 0 = win0_2.index t (0 : Fin 3); omega
  · show win0_2.index t (1 : Fin 3) * 128 + 1 * r.val = win0_2.index t (1 : Fin 3) * 128 + r.val; omega
  · exact Fin.ext (by show j.val = win0_2.index t (2 : Fin 3) * 512 + 1 * j.val; omega)

/-- The column of best scores the body leaves at point `t`, at any of its entries, is the best-score column there. -/
theorem best_point (c : Dev nD) (t : Fin cfg0.N) (Y : S1x128x1.Idx) :
    out0_A_3 (F := Ideal) c (grid0.coords t) (ms0_0 t) (hs0_0 t) (ms0_1 t) (hs0_1 t) (ms0_2 t) (hs0_2 t) (ms0_3 t) (hs0_3 t) (iblk m c 0 t) (iblk m c 1 t) Y
      = simCol (m ((c : Thread nD τ).loc main_arg0)) (m ((c : Thread nD τ).loc main_arg1)) (((cfg0.win 3).blk t).view.emb Y) := by
  obtain ⟨r, rfl⟩ : ∃ r : Fin 128, Y = ix3 (0 : Fin 1) r (0 : Fin 1) :=
    ⟨Y 1, funext fun a => match a with
      | ⟨0, _⟩ => Fin.ext (by show (Y 0).val = 0; have h : (Y 0).val < 1 := (Y 0).isLt; omega)
      | ⟨1, _⟩ => rfl
      | ⟨2, _⟩ => Fin.ext (by show (Y 2).val = 0; have h : (Y 2).val < 1 := (Y 2).isLt; omega)⟩
  obtain ⟨-, -, -, -, -, -, e6, e7, -⟩ := idx_facts t
  refine (best_block_apply c (grid0.coords t) (ms0_0 t) (hs0_0 t) (ms0_1 t) (hs0_1 t) (ms0_2 t) (hs0_2 t) (ms0_3 t) (hs0_3 t) (iblk m c 0 t) (iblk m c 1 t) r).trans ?_
  unfold simCol sim
  refine congrArg Cert.LibSoftmaxRow.rowMax (funext fun j => ?_)
  refine score_of_blocks m c t r j _ _ ?_ ?_
  · show win0_3.index t (0 : Fin 3) * 1 + 1 * 0 = win0_2.index t (0 : Fin 3); omega
  · show win0_3.index t (1 : Fin 3) * 128 + 1 * r.val = win0_2.index t (1 : Fin 3) * 128 + r.val; omega

/-- A block `X` that agrees entry by entry with the array `G` under point `t`'s score block is, written back, block `t`
    of `G`. -/
theorem cut_scores (t : Fin cfg0.N) (X : Vec Ideal S1x128x512 .f32) (G : S4x512x512.Idx → EReal)
    (h : ∀ Y : S1x128x512.Idx, X Y = G (((cfg0.win 2).blk t).view.emb Y)) :
    (cfg0.win 2).cut (grid0.coords t) X = ((cfg0.win 2).blk t).view.read (Elt Ideal) G :=
  funext fun y => h y

/-- The same for the best-score column. -/
theorem cut_best (t : Fin cfg0.N) (X : Vec Ideal S1x128x1 .f32) (G : S4x512x1.Idx → EReal)
    (h : ∀ Y : S1x128x1.Idx, X Y = G (((cfg0.win 3).blk t).view.emb Y)) :
    (cfg0.win 3).cut (grid0.coords t) X = ((cfg0.win 3).blk t).view.read (Elt Ideal) G :=
  funext fun y => h y

/-- What point `t` writes back to the score array is block `t` of the scores. -/
theorem scores_flushed (c : Dev nD) (t : Fin cfg0.N) :
    (dats m 0 c).flushed 2 t = ((cfg0.win 2).blk t).view.read (Elt Ideal) (attArr (m ((c : Thread nD τ).loc main_arg0)) (m ((c : Thread nD τ).loc main_arg1))) := by
  show (cfg0.win 2).cut (grid0.coords t) ((dats m 0 c).after 2 t) = _
  rw [after0_2]
  unfold outsAt0
  dsimp only
  exact cut_scores t _ _ (scores_point m c t)

/-- What point `t` writes back to the best-score column is block `t` of the best scores. -/
theorem best_flushed (c : Dev nD) (t : Fin cfg0.N) :
    (dats m 0 c).flushed 3 t = ((cfg0.win 3).blk t).view.read (Elt Ideal) (simCol (m ((c : Thread nD τ).loc main_arg0)) (m ((c : Thread nD τ).loc main_arg1))) := by
  show (cfg0.win 3).cut (grid0.coords t) ((dats m 0 c).after 3 t) = _
  rw [after0_3]
  unfold outsAt0
  dsimp only
  exact cut_best t _ _ (best_point m c t)

/-! ## The blocks tile the arrays -/

/-- An index of the score array is in point `t`'s block iff each coordinate is in the block's range on its axis. -/
theorem mem_scores_blk (t : Fin cfg0.N) (i : S4x512x512.Idx) :
    i ∈ ((cfg0.win 2).blk t).view.set ↔ ∀ a : Fin 3, win0_2.index t a * S1x128x512.size a ≤ (i a).val
      ∧ (i a).val < win0_2.index t a * S1x128x512.size a + S1x128x512.size a := by
  show i ∈ ((View.whole main_v2_0).slice (win0_2.rect t)).set ↔ _
  rw [View.set_slice_whole, Rect.mem_set_unit]
  exact Iff.rfl

/-- The same for the best-score column. -/
theorem mem_best_blk (t : Fin cfg0.N) (i : S4x512x1.Idx) :
    i ∈ ((cfg0.win 3).blk t).view.set ↔ ∀ a : Fin 3, win0_3.index t a * S1x128x1.size a ≤ (i a).val
      ∧ (i a).val < win0_3.index t a * S1x128x1.size a + S1x128x1.size a := by
  show i ∈ ((View.whole main_v2_1).slice (win0_3.rect t)).set ↔ _
  rw [View.set_slice_whole, Rect.mem_set_unit]
  exact Iff.rfl

/-- Every index of the score array is in the block of the point of its batch and row block. -/
theorem scores_cover (i : S4x512x512.Idx) :
    ∃ t : Fin cfg0.N, (cfg0.win 2).flush t = true ∧ i ∈ ((cfg0.win 2).blk t).view.set := by
  have h0 : (i 0).val < 4 := (i 0).isLt
  have h1 : (i 1).val < 512 := (i 1).isLt
  have h2 : (i 2).val < 512 := (i 2).isLt
  obtain ⟨t, ht⟩ := idx_onto ⟨(i 0).val, h0⟩ ⟨(i 1).val / 128, by omega⟩
  have q0 : win0_2.index t (0 : Fin 3) = (i 0).val := congrFun ht 0
  have q1 : win0_2.index t (1 : Fin 3) = (i 1).val / 128 := congrFun ht 1
  have q2 : win0_2.index t (2 : Fin 3) = 0 := congrFun ht 2
  refine ⟨t, flush0_2 t, ?_⟩
  rw [mem_scores_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 512 ≤ (i 2).val ∧ (i 2).val < win0_2.index t (2 : Fin 3) * 512 + 512; omega

/-- Every index of the best-score column is in the block of the point of its batch and row block. -/
theorem best_cover (i : S4x512x1.Idx) :
    ∃ t : Fin cfg0.N, (cfg0.win 3).flush t = true ∧ i ∈ ((cfg0.win 3).blk t).view.set := by
  have h0 : (i 0).val < 4 := (i 0).isLt
  have h1 : (i 1).val < 512 := (i 1).isLt
  have h2 : (i 2).val < 1 := (i 2).isLt
  obtain ⟨t, ht⟩ := idx_onto ⟨(i 0).val, h0⟩ ⟨(i 1).val / 128, by omega⟩
  have q0 : win0_2.index t (0 : Fin 3) = (i 0).val := congrFun ht 0
  have q1 : win0_2.index t (1 : Fin 3) = (i 1).val / 128 := congrFun ht 1
  obtain ⟨-, -, -, -, -, -, e6, e7, e8, -⟩ := idx_facts t
  refine ⟨t, flush0_3 t, ?_⟩
  rw [mem_best_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 1 ≤ (i 2).val ∧ (i 2).val < win0_3.index t (2 : Fin 3) * 1 + 1; omega

/-! ## The arrays after the region -/

/-- After the region the score array is the array of scores of the launch contents. -/
theorem scores_final (c : Dev nD) : (dats m 0 c).arrAt 2 cfg0.N = attArr (m ((c : Thread nD τ).loc main_arg0)) (m ((c : Thread nD τ).loc main_arg1)) :=
  (dats m 0 c).arrAt_eq_of_cover 2 (attArr (m ((c : Thread nD τ).loc main_arg0)) (m ((c : Thread nD τ).loc main_arg1))) (fun t _ => scores_flushed m c t) scores_cover

/-- After the region the best-score column is the column of best scores of the launch contents. -/
theorem best_final (c : Dev nD) : (dats m 0 c).arrAt 3 cfg0.N = simCol (m ((c : Thread nD τ).loc main_arg0)) (m ((c : Thread nD τ).loc main_arg1)) :=
  (dats m 0 c).arrAt_eq_of_cover 3 (simCol (m ((c : Thread nD τ).loc main_arg0)) (m ((c : Thread nD τ).loc main_arg1))) (fun t _ => best_flushed m c t) best_cover

end Cert.AttDist.Arrays

end
-- ==== Proof.KernelRun.lean ====
/-
  The kernel program's run, read: both results as the specification of the launch contents.

  After the region the first result is the score array itself. The one host line after the region swaps the last two
  axes of the best-score column `[b, i, 0]`, giving `[b, 0, i]`: the array of best scores. No host line writes an
  argument, so both end as launched.
-/
import proofs.«115117_j42649025249395_2_alg».proof.Proof.Arrays

set_option maxRecDepth 16384

noncomputable section

namespace Cert.AttDist.Kernel

open Cert.KernelIdeal Cert.KernelIdeal.Gen Idealize.ShloMosaic Idealize.ShloMosaic.TcCoe Idealize.SL.Sem Idealize.ShloMosaic.StableHlo
open Idealize.ShloMosaic.Pipeline (Dat)
open Idealize.ShloMosaic.ValueIdx Cert.AttDist Cert.AttDist.Arrays

variable (m : (ℓ : Loc nD τ sig) → Buf (Elt Ideal) ℓ) (ρ : Dev nD → PrngReg)

/-- The best-score column `[b, i, 0]` with its last two axes swapped is the array of best scores `[b, 0, i]`. -/
theorem swap_col (q y : Arr) :
    transpose S4x1x512 [0, 2, 1] (simCol q y) transposes_S4x512x1_S4x1x512_0_2_1 = simArr q y :=
  funext fun k =>
    transpose_apply [0, 2, 1] (simCol q y) transposes_S4x512x1_S4x1x512_0_2_1 k (ix3 (k 0) (k 2) (0 : Fin 1)) (fun a =>
      match a with
      | ⟨0, _⟩ => rfl
      | ⟨1, _⟩ => by show 0 = (k 1).val; have h : (k 1).val < 1 := (k 1).isLt; omega
      | ⟨2, _⟩ => rfl)

/-- What the host line after the region leaves in the second result. -/
theorem tail_best (c : Dev nD) :
    Pipeline.afterTail₀ cfgs (dats m) 0 (V0 m) [hostOps1] c main_v3 = simArr (m ((c : Thread nD τ).loc main_arg0)) (m ((c : Thread nD τ).loc main_arg1)) := by
  have hcol : Pipeline.withArrays spec0 c (V0 m c) (fun w => (dats m 0 c).arrAt w cfg0.N) (Proc.devRef .tc main_v2_1)
      = simCol (m ((c : Thread nD τ).loc main_arg0)) (m ((c : Thread nD τ).loc main_arg1)) :=
    (Pipeline.withArrays_arr spec0 launch0.win.arr_inj c _ _ 3).trans (best_final m c)
  unfold Pipeline.afterTail₀
  show StableHlo.after hostOps1 _ (Proc.devRef .tc main_v3) = _
  after_results
  refine (congrArg (fun x => transpose S4x1x512 [0, 2, 1] x transposes_S4x512x1_S4x1x512_0_2_1) hcol).trans ?_
  exact swap_col _ _

/-- THE RUN: every weakly fair execution ends with the first result at the scores and the second at the best scores of
    the launch contents, the arguments unchanged. -/
theorem run : θ_run defs (onTc (τ := τ) (main (F := Ideal))) ⟨m, fun _ => 0, ρ⟩ fun r => ∀ c : Dev nD,
      r.2.mem ((c : Thread nD τ).loc main_v2_0) = attArr (m ((c : Thread nD τ).loc main_arg0)) (m ((c : Thread nD τ).loc main_arg1))
      ∧ r.2.mem ((c : Thread nD τ).loc main_v3) = simArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).1 2).trans (scores_final m c),
        ((h c).2 main_v3 (Pipeline.mem_restRefs_of main_v3 (by decide) (by decide))).trans (tail_best m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.AttDist.Kernel

end
-- ==== Proof.RefRead.lean ====
/-
  The reference's two results are the specification.

  The reference lays both arguments out over `[b, j, i, d]` — the queries constant along `j`, the keys constant along
  `i` —, subtracts, takes absolute values, sums along `d` from zero, divides by 128, swaps `i` and `j`, and negates:
  at `(b, i, j)` that is minus the mean absolute difference of query `i` and key `j`, the quotient by 128 being the
  product with 1/128. Its second result is the maximum of those scores along `j`, from −∞, laid out `[b, 0, i]`.
-/
import proofs.«115117_j42649025249395_2_alg».proof.Proof.Gen.ReferenceIdeal.Run
import proofs.«115117_j42649025249395_2_alg».proof.Proof.Gen.ReferenceIdeal.Read
import proofs.«115117_j42649025249395_2_alg».proof.Proof.LibAxis2
import proofs.«115117_j42649025249395_2_alg».proof.Proof.Spec

noncomputable section

open scoped BigOperators

namespace Cert.AttDist.Ref

open Cert.ReferenceIdeal Cert.ReferenceIdeal.Gen Cert.ReferenceIdeal.Read
open Idealize.ShloMosaic Idealize.ShloMosaic.TcCoe Idealize.SL.Sem Idealize.ShloMosaic.ValueIdx Cert.AttDist

/-- The absolute difference at `(b, j, i, d)`: query `i` against key `j`, entry `d`. -/
theorem absdiff_apply (q y : Arr) (b : Fin 4) (i j : Fin 512) (d : Fin 128) :
    val_main_v5 (F := Ideal) q y (ix4 b j i d) = absE (q (ix3 b i d) - y (ix3 b j d)) := by
  have e0 : idx_main_v0 (idx_main_v2 (ix4 b j i d)) = ix3 b i d :=
    funext fun a => Fin.ext (by match a with | ⟨0, _⟩ => rfl | ⟨1, _⟩ => rfl | ⟨2, _⟩ => rfl)
  have e1 : idx_main_v1 (idx_main_v3 (ix4 b j i d)) = ix3 b j d :=
    funext fun a => Fin.ext (by match a with | ⟨0, _⟩ => rfl | ⟨1, _⟩ => rfl | ⟨2, _⟩ => rfl)
  rw [val_main_v5_apply, val_main_v4_apply, val_main_v2_apply, val_main_v3_apply, val_main_v0_apply, val_main_v1_apply,
    e0, e1]
  rfl

/-- The first result at `(b, i, j)` is the score. -/
theorem scores_apply (q y : Arr) (b : Fin 4) (i j : Fin 512) :
    val_main_v10 (F := Ideal) q y (ix3 b i j) = att q y b i j := by
  have e9 : idx_main_v9 (ix3 b i j) = ix3 b j i :=
    funext fun a => Fin.ext (by match a with | ⟨0, _⟩ => rfl | ⟨1, _⟩ => rfl | ⟨2, _⟩ => rfl)
  rw [val_main_v10_apply, val_main_v9_apply, e9, val_main_v8_apply, val_main_v6_apply, val_main_v7_apply,
    val_main_cst_0_apply, val_main_cst_apply]
  simp only [Ideal.hostNegf_def, Ideal.negf_def, Ideal.hostDivf_def, Ideal.ofBits_def, Ideal.ofBits_zero_f32, zero_add,
    div_128]
  unfold att dist
  refine congrArg (fun s : EReal => -(s * ((1 / 128 : ℝ) : EReal))) (Finset.sum_congr rfl fun d _ => ?_)
  have e6 : idx_main_v6 (ix3 b j i) d = ix4 b j i d :=
    funext fun a => Fin.ext (by match a with | ⟨0, _⟩ => rfl | ⟨1, _⟩ => rfl | ⟨2, _⟩ => rfl | ⟨3, _⟩ => rfl)
  rw [e6]
  exact absdiff_apply q y b i j d

/-- The second result at `(b, 0, i)` is the best score of query `i`. -/
theorem best_apply (q y : Arr) (b : Fin 4) (i : Fin 512) :
    val_main_v12 (F := Ideal) q y (ix3 b (0 : Fin 1) i) = sim q y b i := by
  have e12 : idx_main_v12 (ix3 b (0 : Fin 1) i) = ix2 b i :=
    funext fun a => Fin.ext (by match a with | ⟨0, _⟩ => rfl | ⟨1, _⟩ => rfl)
  rw [val_main_v12_apply, e12]
  unfold val_main_v11
  refine (Cert.LibAxis2.hostReduce_max_last (val_main_v10 (F := Ideal) q y) (val_main_cst_1 (F := Ideal)) (fun _ => rfl)
    reducesTo_S4x512x512_S4x512_d2 (by decide) h_S_ b i).trans ?_
  unfold sim
  exact congrArg Cert.LibSoftmaxRow.rowMax (funext fun j => scores_apply q y b i j)

/-- The first result is the array of scores. -/
theorem scores_eq (q y : Arr) : val_main_v10 (F := Ideal) q y = attArr q y :=
  funext fun k => (congrArg (val_main_v10 (F := Ideal) q y) (eq_ix3 k)).trans (scores_apply q y (k 0) (k 1) (k 2))

/-- The second result is the array of best scores. -/
theorem best_eq (q y : Arr) : val_main_v12 (F := Ideal) q y = simArr q y :=
  funext fun k => by
    have hk : k = ix3 (k 0) (0 : Fin 1) (k 2) := by
      funext a
      match a with
      | ⟨0, _⟩ => rfl
      | ⟨1, _⟩ => exact Fin.ext (by show (k 1).val = 0; have h : (k 1).val < 1 := (k 1).isLt; omega)
      | ⟨2, _⟩ => rfl
    exact (congrArg (val_main_v12 (F := Ideal) q y) hk).trans (best_apply q y (k 0) (k 2))

/-- The reference's run: both results at the specification of the launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = attArr (m ((c.tc : Thread nD τ).loc main_arg0)) (m ((c.tc : Thread nD τ).loc main_arg1))
      ∧ r.2.mem ((c.tc : Thread nD τ).loc main_v12) = simArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c).1.trans ((val_main_v10_eq _ _).trans (scores_eq _ _)),
        (h c).2.1.trans ((val_main_v12_eq _ _).trans (best_eq _ _)),
        (h c).2.2.1, (h c).2.2.2⟩)
    (Cert.ReferenceIdeal.Value.run (F := Ideal) m ρ)

end Cert.AttDist.Ref

end
-- ==== Proof.lean ====
/-
  The certificate's claim: the kernel and its idealization run and leave their arguments unchanged, the reference
  does too, and at the ideal values the kernel's two results are the reference's.

  Both programs compute, from queries `q` and keys `y` of shape `[4, 512, 128]`, the scores
  `att[b, i, j] = −(Σ_d |q[b,i,d] − y[b,j,d]|) · (1/128)` and the best scores `sim[b, 0, i] = max_j att[b, i, j]`.
  The kernel reaches them from the transposed arguments, sixteen rows of `d` at a time in a running total, multiplying
  by 2⁻⁷ and negating by subtraction from zero; the reference sums all 128 at once, divides by 128 and negates. The
  three frames are the generated ones (the reference's is its run with the results dropped); the idealization rewrote
  nothing, so `preserves` is trivial; `algebraic` sets the two runs side by side at the same function of the arguments.
-/
import proofs.«115117_j42649025249395_2_alg».proof.Defs
import proofs.«115117_j42649025249395_2_alg».proof.Proof.Gen.Kernel
import proofs.«115117_j42649025249395_2_alg».proof.Proof.Gen.Kernel.Frame
import proofs.«115117_j42649025249395_2_alg».proof.Proof.Gen.KernelIdeal
import proofs.«115117_j42649025249395_2_alg».proof.Proof.Gen.KernelIdeal.Frame
import proofs.«115117_j42649025249395_2_alg».proof.Proof.Gen.ReferenceIdeal
import proofs.«115117_j42649025249395_2_alg».proof.Proof.Gen.ReferenceIdeal.Run
import proofs.«115117_j42649025249395_2_alg».proof.Proof.Gen.Pre_finite_inputs
import proofs.«115117_j42649025249395_2_alg».proof.Proof.KernelRun
import proofs.«115117_j42649025249395_2_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- At the ideal values, from memories agreeing on the arguments, both programs end with the scores and the best
    scores of those arguments. -/
theorem algebraic : Cert.algebraic_KernelIdeal_ReferenceIdeal := by
  intro m ρ m' ρ' _ hagree
  refine ⟨fun c => Cert.AttDist.attArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.AttDist.simArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.AttDist.Kernel.run m ρ, ?_⟩
  refine (θ_run Cert.ReferenceIdeal.defs _ _).mono (fun _ h c => ?_) (Cert.AttDist.Ref.run m' ρ')
  obtain ⟨h1, h2, h3, h4⟩ := h c
  refine ⟨?_, ?_, h3, h4⟩
  · rw [h1, (hagree c).1, (hagree c).2]
  · rw [h2, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
